-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S8192 : Shape := ⟨1, ![8192]⟩
abbrev S128x128 : Shape := ⟨2, ![128, 128]⟩
abbrev S128 : Shape := ⟨1, ![128]⟩
abbrev S128x12 : Shape := ⟨2, ![128, 12]⟩
abbrev S12 : Shape := ⟨1, ![12]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part2 {F : FTy → Type} [FloatOps F] (main_arg9 : FVec F S128x12 .f32) (main_arg10 : FVec F S12 .f32) (main_v33 : IVec S_ 1) : IVec S_ 1 :=
  let main_v34 : FVec F S128x12 .f32 := Host.absf main_arg9
  let main_cst_12 : FVec F S_ .f32 := constant S_ .f32 0x7F800000#32
  let main_v35 : FVec F S128x12 .f32 := broadcastInDim S128x12 ![] bcast_S_S128x12 main_cst_12
  let main_v36 : IVec S128x12 1 := cmpf .olt main_v34 main_v35
  let main_c_13 : IVec S_ 1 := constantI S_ 1 1#1
  let main_v37 : IVec S_ 1 := (fun x v => Host.reduce IntOp.andi x v reducesTo_S128x12_S_d0_1 h_S_) main_v36 main_c_13
  let main_v38 : IVec S_ 1 := andi main_v33 main_v37
  let main_v39 : FVec F S12 .f32 := Host.absf main_arg10
  let main_cst_14 : FVec F S_ .f32 := constant S_ .f32 0x7F800000#32
  let main_v40 : FVec F S12 .f32 := broadcastInDim S12 ![] bcast_S_S12 main_cst_14
  let main_v41 : IVec S12 1 := cmpf .olt main_v39 main_v40
  let main_c_15 : IVec S_ 1 := constantI S_ 1 1#1
  let main_v42 : IVec S_ 1 := (fun x v => Host.reduce IntOp.andi x v reducesTo_S12_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x12 .f32) (main_arg10 : FVec F S12 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S8192 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x12 .f32) (main_arg10 : FVec F S12 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S8192 : Shape := ⟨1, ![8192]⟩
abbrev S128x128 : Shape := ⟨2, ![128, 128]⟩
abbrev S128 : Shape := ⟨1, ![128]⟩
abbrev S128x12 : Shape := ⟨2, ![128, 12]⟩
abbrev S12 : Shape := ⟨1, ![12]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S8192x1 : Shape := ⟨2, ![8192, 1]⟩
abbrev S8192x128 : Shape := ⟨2, ![8192, 128]⟩
abbrev S8192x12 : Shape := ⟨2, ![8192, 12]⟩
abbrev S2048x128 : Shape := ⟨2, ![2048, 128]⟩
abbrev S2048x12 : Shape := ⟨2, ![2048, 12]⟩
abbrev S1x12 : Shape := ⟨2, ![1, 12]⟩

abbrev nBuf : Space → Nat
  | .hbm => 133
  | .vmem => 20
  | .smem => 0
  | _ => 0

abbrev hbmTy0_0 (i : Nat) : BufTy := match i % 128 with
  | 0 => ⟨S50000x128, .f32⟩
  | 1 => ⟨S2x800000, .i32⟩
  | 2 => ⟨S8192, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x12, .f32⟩
  | 10 => ⟨S12, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000x128, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x128, .f32⟩
  | 84 => ⟨S850000x1, .f32⟩
  | 85 => ⟨S850000x128, .f32⟩
  | 86 => ⟨S850000x128, .f32⟩
  | 87 => ⟨S_, .f32⟩
  | 88 => ⟨S50000x128, .f32⟩
  | 89 => ⟨S850000x1, .i32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S50000x128, .f32⟩

abbrev hbmTy0_1 (i : Nat) : BufTy := match i % 128 with
  | 0 => ⟨S8192x128, .f32⟩
  | 1 => ⟨S8192x12, .f32⟩
  | 2 => ⟨S1x12, .f32⟩
  | 3 => ⟨S8192x12, .f32⟩
  | 4 => ⟨S8192x12, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S2048x128, .f32⟩
  | .local _ .vmem, ⟨16, _⟩ => ⟨S2048x128, .f32⟩
  | .local _ .vmem, ⟨17, _⟩ => ⟨S128x12, .f32⟩
  | .local _ .vmem, ⟨18, _⟩ => ⟨S2048x12, .f32⟩
  | .local _ .vmem, ⟨19, _⟩ => ⟨S2048x12, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_c_9 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_11 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call2_cst : Ref sig .tc := ⟨.hbm, 94, rfl⟩
abbrev main_call2_v0 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_14 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call3_cst : Ref sig .tc := ⟨.hbm, 117, rfl⟩
abbrev main_call3_v0 : Ref sig .tc := ⟨.hbm, 118, rfl⟩
abbrev main_v83 : Ref sig .tc := ⟨.hbm, 119, rfl⟩
abbrev main_c_15 : Ref sig .tc := ⟨.hbm, 120, rfl⟩
abbrev main_v84 : Ref sig .tc := ⟨.hbm, 121, rfl⟩
abbrev main_v85 : Ref sig .tc := ⟨.hbm, 122, rfl⟩
abbrev main_c_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x12 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x12 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S_S8192 : S_.BroadcastsInDim S8192 (![] : Fin 0 → Fin S8192.rank)
  bcast_S8192_S8192x1_0 : S8192.BroadcastsInDim S8192x1 (![0] : Fin 1 → Fin S8192x1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x12_S128x12_0_0 : ∀ a, (![0, 0] : Fin 2 → Nat) a + S128x12.size a ≤ S128x12.size a
  h_S128x12 : 0 < S128x12.numel
  inb_S2048x12_S2048x12_0_0 : ∀ a, (![0, 0] : Fin 2 → Nat) a + S2048x12.size a ≤ S2048x12.size a
  h_S2048x12 : 0 < S2048x12.numel
  bcast_S12_S1x12_1 : S12.BroadcastsInDim S1x12 (![1] : Fin 1 → Fin S1x12.rank)
  bcast_S1x12_S8192x12_0_1 : S1x12.BroadcastsInDim S8192x12 (![0, 1] : Fin 2 → Fin S8192x12.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S8192x1_S8192x128_1_0_n_n_0_1_1128_wf : GatherDims.WF S50000x128 S8192x1 S8192x128 [1] [0] [] [0] [] 1 ![1, 128]
  dot_S2048x128_S128x12_S2048x12_1_0_0_1_n_n_wf : DotDims.WF S2048x128 S128x12 S2048x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S8192x128.size a
  hwx3_0 : ∀ i : grid3.Coords, EltTy.bits .f32 = 32 ∨ (Rect.block (s := S8192x128) S2048x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x12.size a ≤ S128x12.size a
  hwx3_1 : ∀ i : grid3.Coords, EltTy.bits .f32 = 32 ∨ (Rect.block (s := S128x12) S128x12.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x12.size a ≤ S8192x12.size a
  hwx3_2 : ∀ i : grid3.Coords, EltTy.bits .f32 = 32 ∨ (Rect.block (s := S8192x12) S2048x12.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S8192x1_S8192x128_1_0_n_n_0_1_1128 : GatherDims S50000x128 S8192x1 S8192x128 where
  offsetDims := [1]
  collapsedSliceDims := [0]
  operandBatchingDims := []
  startIndicesBatchingDims := []
  startIndexMap := [0]
  indexVectorDim := 1
  sliceSizes := ![1, 128]
  wf := gather_S50000x128_S8192x1_S8192x128_1_0_n_n_0_1_1128_wf
def dot_S2048x128_S128x12_S2048x12_1_0_0_1_n_n : DotDims S2048x128 S128x12 S2048x12 where
  lhsContracting := [1]
  rhsContracting := [0]
  lhsNonContracting := [0]
  rhsNonContracting := [1]
  lhsBatch := []
  rhsBatch := []
  wf := dot_S2048x128_S128x12_S2048x12_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v90) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x12.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S2048x12.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S8192 : Shape := ⟨1, ![8192]⟩
abbrev S128x128 : Shape := ⟨2, ![128, 128]⟩
abbrev S128 : Shape := ⟨1, ![128]⟩
abbrev S128x12 : Shape := ⟨2, ![128, 12]⟩
abbrev S12 : Shape := ⟨1, ![12]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S8192x1 : Shape := ⟨2, ![8192, 1]⟩
abbrev S8192x128 : Shape := ⟨2, ![8192, 128]⟩
abbrev S8192x12 : Shape := ⟨2, ![8192, 12]⟩
abbrev S1x12 : Shape := ⟨2, ![1, 12]⟩

abbrev nBuf : Space → Nat
  | .hbm => 205
  | .vmem => 0
  | .smem => 0
  | _ => 0

abbrev hbmTy0_0 (i : Nat) : BufTy := match i % 128 with
  | 0 => ⟨S50000x128, .f32⟩
  | 1 => ⟨S2x800000, .i32⟩
  | 2 => ⟨S8192, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x12, .f32⟩
  | 10 => ⟨S12, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x128, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x128, .f32⟩
  | 61 => ⟨S850000x1, .f32⟩
  | 62 => ⟨S850000x128, .f32⟩
  | 63 => ⟨S850000x128, .f32⟩
  | 64 => ⟨S_, .f32⟩
  | 65 => ⟨S50000x128, .f32⟩
  | 66 => ⟨S850000x1, .i32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S50000, .i32⟩
  | 75 => ⟨S850000, .i32⟩
  | 76 => ⟨S850000, .i32⟩
  | 77 => ⟨S_, .f32⟩
  | 78 => ⟨S850000, .f32⟩
  | 79 => ⟨S_, .f32⟩
  | 80 => ⟨S50000, .f32⟩
  | 81 => ⟨S850000x1, .i32⟩
  | 82 => ⟨S50000, .f32⟩
  | 83 => ⟨S_, .f32⟩
  | 84 => ⟨S50000, .f32⟩
  | 85 => ⟨S50000, .i1⟩
  | 86 => ⟨S50000, .f32⟩
  | 87 => ⟨S_, .f32⟩
  | 88 => ⟨S_, .f32⟩
  | 89 => ⟨S50000, .f32⟩
  | 90 => ⟨S50000, .f32⟩
  | 91 => ⟨S_, .i32⟩
  | 92 => ⟨S850000, .i32⟩
  | 93 => ⟨S850000, .i1⟩
  | 94 => ⟨S_, .i32⟩
  | 95 => ⟨S850000, .i32⟩
  | 96 => ⟨S850000, .i32⟩
  | 97 => ⟨S850000, .i32⟩
  | 98 => ⟨S850000x1, .i32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S50000x128, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | 5 => ⟨S50000, .i32⟩
  | 6 => ⟨S850000, .i32⟩
  | 7 => ⟨S850000, .i32⟩
  | 8 => ⟨S_, .f32⟩
  | 9 => ⟨S850000, .f32⟩
  | 10 => ⟨S_, .f32⟩
  | 11 => ⟨S50000, .f32⟩
  | 12 => ⟨S850000x1, .i32⟩
  | 13 => ⟨S50000, .f32⟩
  | 14 => ⟨S_, .f32⟩
  | 15 => ⟨S50000, .f32⟩
  | 16 => ⟨S50000, .i1⟩
  | 17 => ⟨S50000, .f32⟩
  | 18 => ⟨S_, .f32⟩
  | 19 => ⟨S_, .f32⟩
  | 20 => ⟨S50000, .f32⟩
  | 21 => ⟨S50000, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S850000, .f32⟩
  | 41 => ⟨S50000x128, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x128, .f32⟩
  | 51 => ⟨S850000x1, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x128, .f32⟩
  | 73 => ⟨S8192x12, .f32⟩
  | 74 => ⟨S1x12, .f32⟩
  | 75 => ⟨S8192x12, .f32⟩
  | 76 => ⟨S8192x12, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v58 : Ref sig .tc := ⟨.hbm, 90, rfl⟩
abbrev main_c_13 : Ref sig .tc := ⟨.hbm, 91, rfl⟩
abbrev main_v59 : Ref sig .tc := ⟨.hbm, 92, rfl⟩
abbrev main_v60 : Ref sig .tc := ⟨.hbm, 93, rfl⟩
abbrev main_c_14 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_15 : Ref sig .tc := ⟨.hbm, 100, rfl⟩
abbrev main_v66 : Ref sig .tc := ⟨.hbm, 101, rfl⟩
abbrev main_v67 : Ref sig .tc := ⟨.hbm, 102, rfl⟩
abbrev main_c_16 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_19 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call3_cst : Ref sig .tc := ⟨.hbm, 130, rfl⟩
abbrev main_call3_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_cst_21 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_22 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_cst_23 : Ref sig .tc := ⟨.hbm, 146, rfl⟩
abbrev main_call4_v0 : Ref sig .tc := ⟨.hbm, 147, rfl⟩
abbrev main_call4_v1 : Ref sig .tc := ⟨.hbm, 148, rfl⟩
abbrev main_v102 : Ref sig .tc := ⟨.hbm, 149, rfl⟩
abbrev main_c_24 : Ref sig .tc := ⟨.hbm, 150, rfl⟩
abbrev main_v103 : Ref sig .tc := ⟨.hbm, 151, rfl⟩
abbrev main_v104 : Ref sig .tc := ⟨.hbm, 152, rfl⟩
abbrev main_c_25 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_c_26 : Ref sig .tc := ⟨.hbm, 159, rfl⟩
abbrev main_v110 : Ref sig .tc := ⟨.hbm, 160, rfl⟩
abbrev main_v111 : Ref sig .tc := ⟨.hbm, 161, rfl⟩
abbrev main_c_27 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_28 : Ref sig .tc := ⟨.hbm, 170, rfl⟩
abbrev main_v119 : Ref sig .tc := ⟨.hbm, 171, rfl⟩
abbrev main_v120 : Ref sig .tc := ⟨.hbm, 172, rfl⟩
abbrev main_c_29 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_30 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_call5_cst : Ref sig .tc := ⟨.hbm, 189, rfl⟩
abbrev main_call5_v0 : Ref sig .tc := ⟨.hbm, 190, rfl⟩
abbrev main_v135 : Ref sig .tc := ⟨.hbm, 191, rfl⟩
abbrev main_c_31 : Ref sig .tc := ⟨.hbm, 192, rfl⟩
abbrev main_v136 : Ref sig .tc := ⟨.hbm, 193, rfl⟩
abbrev main_v137 : Ref sig .tc := ⟨.hbm, 194, rfl⟩
abbrev main_c_32 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S8192 : S_.BroadcastsInDim S8192 (![] : Fin 0 → Fin S8192.rank)
  bcast_S8192_S8192x1_0 : S8192.BroadcastsInDim S8192x1 (![0] : Fin 1 → Fin S8192x1.rank)
  bcast_S12_S1x12_1 : S12.BroadcastsInDim S1x12 (![1] : Fin 1 → Fin S1x12.rank)
  bcast_S1x12_S8192x12_0_1 : S1x12.BroadcastsInDim S8192x12 (![0, 1] : Fin 2 → Fin S8192x12.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S8192x1_S8192x128_1_0_n_n_0_1_1128_wf : GatherDims.WF S50000x128 S8192x1 S8192x128 [1] [0] [] [0] [] 1 ![1, 128]
  dot_S8192x128_S128x12_S8192x12_1_0_0_1_n_n_wf : DotDims.WF S8192x128 S128x12 S8192x12 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S8192x1_S8192x128_1_0_n_n_0_1_1128 : GatherDims S50000x128 S8192x1 S8192x128 where
  offsetDims := [1]
  collapsedSliceDims := [0]
  operandBatchingDims := []
  startIndicesBatchingDims := []
  startIndexMap := [0]
  indexVectorDim := 1
  sliceSizes := ![1, 128]
  wf := gather_S50000x128_S8192x1_S8192x128_1_0_n_n_0_1_1128_wf
def dot_S8192x128_S128x12_S8192x12_1_0_0_1_n_n : DotDims S8192x128 S128x12 S8192x12 where
  lhsContracting := [1]
  rhsContracting := [0]
  lhsNonContracting := [0]
  rhsNonContracting := [1]
  lhsBatch := []
  rhsBatch := []
  wf := dot_S8192x128_S128x12_S8192x12_1_0_0_1_n_n_wf

class Facts : Prop extends Facts₀ where

variable [Facts]
-- ==== Proof.KernelRun.lean ====
/-
  The program's run, with every buffer's final contents named.

  The program is fifteen segments in a row: stretches of host operations and four pipelined regions.  Folding the
  segments over the launch contents gives the contents of every buffer at every segment boundary; the last of these
  folds is what the buffers hold when the program returns.  From any launch memory every weakly fair execution of
  the program terminates, without a fault, with every buffer that outlives the regions at the last fold's contents.
  Read at the result buffer this names the program's result; read at the argument buffers it says they end as
  launched.
-/
import proofs.«166321_j3496103379584_1_alg».proof.Proof.Gen.KernelIdeal.Frame

set_option maxRecDepth 16384

noncomputable section

namespace Cert.Bridge.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The segments' run from the launch: each core's thread state chains through the fifteen segments, and the last
    state — every buffer that outlives the regions at the last fold — is read against the final memory. -/
theorem run_last_fold : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h => h)

/-- In particular the result buffer ends at the last fold's contents there, and the eleven argument arrays as
    launched: no operation and no region writes an argument. -/
theorem run_value : θ_run defs (onTc (τ := τ) (main (F := F))) ⟨m, fun _ => 0, ρ⟩ (fun r => ∀ c : Dev nD,
      r.2.mem ((c.tc : Thread nD τ).loc main_v94) = W15 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
      ⟨h c _ (mem_uc main_v94 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)
    (run_last_fold m ρ)

end Cert.Bridge.KernelRun

end
-- ==== Proof.LibDotRead.lean ====
/-
  A contraction over one axis, read at an index, on the extended reals.

  A product of two arrays that contracts ONE axis of each, whatever batch and free axes surround it, is at every result
  index the sum, over the shared axis's coordinate k, of the left operand at an index L k times the right operand at an
  index R k.  The dimension numbers determine L and R: a batch axis or a free axis of an operand reads one coordinate of
  the result index (its position among the result's axes is: the batch axes first, then the left operand's free axes, then
  the right operand's), and the contracted axis reads k.  The lemmas below give each such coordinate as a number, so
  that for literal dimension numbers the two indices L k and R k can be written out by coordinates; the sum itself is the
  kernel's product into a zero accumulator and the host's general product alike.
-/
import Idealize.ShloMosaic.PureOps.Ideal.Laws
import Idealize.ShloMosaic.Lib.ValueIdx

noncomputable section

namespace Cert.DotRead

open Idealize.ShloMosaic Idealize.ShloMosaic.ValueIdx

variable {sl sr so : Shape} (d : DotDims sl sr so)

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

/-- A batch axis of the left operand reads the result index at the axis's place among the batch axes. -/
theorem lhs_batch_val (j : so.Idx) (k : d.contr.Idx) (a : Fin sl.rank) (hb : a ∈ d.lhsBatch)
    (q : Fin so.rank) (hq : d.lhsBatch.idxOf a = q.val) : (d.lhsIdx j k a).val = (j q).val := by
  unfold DotDims.lhsIdx
  rw [dif_pos hb]
  simp only [Fin.val_cast]
  exact val_congr j _ _ _ q.isLt hq

/-- A free axis of the left operand reads the result index after the batch axes. -/
theorem lhs_free_val (j : so.Idx) (k : d.contr.Idx) (a : Fin sl.rank) (hb : a ∉ d.lhsBatch) (hn : a ∈ d.lhsNonContracting)
    (q : Fin so.rank) (hq : d.lhsBatch.length + d.lhsNonContracting.idxOf a = q.val) : (d.lhsIdx j k a).val = (j q).val := by
  unfold DotDims.lhsIdx
  rw [dif_neg hb, dif_pos hn]
  simp only [Fin.val_cast]
  exact val_congr j _ _ _ q.isLt hq

/-- A batch axis of the right operand reads the result index at the axis's place among the batch axes. -/
theorem rhs_batch_val (j : so.Idx) (k : d.contr.Idx) (a : Fin sr.rank) (hb : a ∈ d.rhsBatch)
    (q : Fin so.rank) (hq : d.rhsBatch.idxOf a = q.val) : (d.rhsIdx j k a).val = (j q).val := by
  unfold DotDims.rhsIdx
  rw [dif_pos hb]
  simp only [Fin.val_cast]
  exact val_congr j _ _ _ q.isLt hq

/-- A free axis of the right operand reads the result index after the batch axes and the left operand's free axes. -/
theorem rhs_free_val (j : so.Idx) (k : d.contr.Idx) (a : Fin sr.rank) (hb : a ∉ d.rhsBatch) (hn : a ∈ d.rhsNonContracting)
    (q : Fin so.rank) (hq : d.lhsBatch.length + d.lhsNonContracting.length + d.rhsNonContracting.idxOf a = q.val) :
    (d.rhsIdx j k a).val = (j q).val := by
  unfold DotDims.rhsIdx
  rw [dif_neg hb, dif_pos hn]
  simp only [Fin.val_cast]
  exact val_congr j _ _ _ q.isLt hq

/-- One contracted axis: the contraction shape has one axis … -/
theorem contr_rank_one {cl : Fin sl.rank} (hc : d.lhsContracting = [cl]) : d.contr.rank = 1 := by
  rw [d.rank_contr, hc]; rfl

/-- … of the contracted axis's extent. -/
theorem contr_size_one {cl : Fin sl.rank} (hc : d.lhsContracting = [cl]) :
    d.contr.size ⟨0, by rw [contr_rank_one d hc]; exact Nat.one_pos⟩ = sl.size cl := by
  rw [d.size_contr 0 (by rw [hc]; exact Nat.one_pos)]
  simp only [hc, List.getElem_cons_zero]

section One

variable (K : Nat) (hr : d.contr.rank = 1) (hs : d.contr.size ⟨0, by omega⟩ = K)

/-- The left operand's contracted axis reads the shared coordinate. -/
theorem lhs_contr_val {cl : Fin sl.rank} (hc : d.lhsContracting = [cl]) (j : so.Idx) (k : Fin K) :
    (d.lhsIdx j ((contrEquiv1 d K hr hs).symm k) cl).val = k.val :=
  (d.lhsIdx_val_of_single hc _ _).trans (contrEquiv1_symm_val d K hr hs k)

/-- The right operand's contracted axis reads the shared coordinate. -/
theorem rhs_contr_val {cr : Fin sr.rank} (hc : d.rhsContracting = [cr]) (j : so.Idx) (k : Fin K) :
    (d.rhsIdx j ((contrEquiv1 d K hr hs).symm k) cr).val = k.val :=
  (d.rhsIdx_val_of_single hc _ _).trans (contrEquiv1_symm_val d K hr hs k)

/-- A kernel's product into a zero accumulator: the sum over the shared coordinate. -/
theorem matmul_zero_read {φ₁ φ₂ : FTy} (prec : Option ContractPrecision) (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.matmul d prec lhs rhs (constant so .f32 0x00000000#32) j = ∑ k : Fin K, lhs (L k) * rhs (R k) := by
  rw [Ideal.matmul_constant_zero_apply, ← Equiv.sum_comp (contrEquiv1 d K hr hs).symm]
  exact Finset.sum_congr rfl fun k _ => by rw [hL k, hR k]

/-- The host's general product: the same sum. -/
theorem dotGeneral_read {φ₁ φ₂ : FTy} (prec : Option ContractPrecision) (sched : HostSchedule)
    (lhs : FVec Ideal sl φ₁) (rhs : FVec Ideal sr φ₂)
    (j : so.Idx) (L : Fin K → sl.Idx) (R : Fin K → sr.Idx)
    (hL : ∀ k, d.lhsIdx j ((contrEquiv1 d K hr hs).symm k) = L k)
    (hR : ∀ k, d.rhsIdx j ((contrEquiv1 d K hr hs).symm k) = R k) :
    FloatOps.dotGeneral d prec sched lhs rhs j = ∑ k : Fin K, lhs (L k) * rhs (R k) := by
  rw [Ideal.dotGeneral_apply, ← Equiv.sum_comp (contrEquiv1 d K hr hs).symm]
  exact Finset.sum_congr rfl fun k _ => by rw [hL k, hR k]

end One

end Cert.DotRead

end
-- ==== Proof.LibMatmulRows.lean ====
/-
  The product of an [M, K] array with a [K, N] array, read at one entry.

  Both spellings of the product contract the left operand's second axis with the right operand's first and keep the
  left operand's rows and the right operand's columns as the result's two axes.  On the extended reals the entry in
  row p and column q is then the sum over the shared coordinate k of (left at (p, k)) times (right at (k, q)) — for
  the kernel's product into a zero accumulator and for the host's general product alike, whatever M, K and N are.
  A product computed a block of rows at a time therefore has the same entries as the product of the whole arrays.
-/
import proofs.«166321_j3496103379584_1_alg».proof.Proof.LibDotRead

noncomputable section

namespace Cert.MatmulRows

open Idealize.ShloMosaic Idealize.ShloMosaic.ValueIdx

variable {M K N : Nat} (d : DotDims (⟨2, ![M, K]⟩ : Shape) (⟨2, ![K, N]⟩ : Shape) (⟨2, ![M, N]⟩ : Shape))
  (hlc : d.lhsContracting = [1]) (hrc : d.rhsContracting = [0])
  (hln : d.lhsNonContracting = [0]) (hrn : d.rhsNonContracting = [1])
  (hlb : d.lhsBatch = []) (hrb : d.rhsBatch = [])

include hlc in
theorem contr_rank : d.contr.rank = 1 := Cert.DotRead.contr_rank_one d hlc

include hlc in
theorem contr_size : d.contr.size ⟨0, by rw [contr_rank d hlc]; exact Nat.one_pos⟩ = K :=
  Cert.DotRead.contr_size_one d hlc

include hlc hln hlb in
/-- The left operand is read in the result's row, at the shared coordinate. -/
theorem lhs_read (p : Fin M) (q : Fin N) (k : Fin K) :
    d.lhsIdx (ix2 p q) ((contrEquiv1 d K (contr_rank d hlc) (contr_size d hlc)).symm k) = ix2 p k := by
  funext a
  apply Fin.ext
  match a with
  | ⟨0, _⟩ =>
    exact Cert.DotRead.lhs_free_val d (ix2 p q) _ 0 (by rw [hlb]; exact List.not_mem_nil) (by rw [hln]; exact List.mem_singleton.mpr rfl)
      0 (by rw [hlb, hln]; rfl)
  | ⟨1, _⟩ => exact Cert.DotRead.lhs_contr_val d K (contr_rank d hlc) (contr_size d hlc) hlc (ix2 p q) k

include hlc hrc hln hrn hlb hrb in
/-- The right operand is read at the shared coordinate, in the result's column. -/
theorem rhs_read (p : Fin M) (q : Fin N) (k : Fin K) :
    d.rhsIdx (ix2 p q) ((contrEquiv1 d K (contr_rank d hlc) (contr_size d hlc)).symm k) = ix2 k q := by
  funext a
  apply Fin.ext
  match a with
  | ⟨0, _⟩ => exact Cert.DotRead.rhs_contr_val d K (contr_rank d hlc) (contr_size d hlc) hrc (ix2 p q) k
  | ⟨1, _⟩ =>
    exact Cert.DotRead.rhs_free_val d (ix2 p q) _ 1 (by rw [hrb]; exact List.not_mem_nil) (by rw [hrn]; exact List.mem_singleton.mpr rfl)
      1 (by rw [hlb, hln, hrn]; rfl)

include hlc hrc hln hrn hlb hrb in
/-- The kernel's product into a zero accumulator, entry (p, q). -/
theorem matmul_zero_ix2 {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, lhs (ix2 p k) * rhs (ix2 k q) :=
  Cert.DotRead.matmul_zero_read d K (contr_rank d hlc) (contr_size d hlc) prec lhs rhs (ix2 p q) (fun k => ix2 p k) (fun k => ix2 k q)
    (lhs_read d hlc hln hlb p q) (rhs_read d hlc hrc hln hrn hlb hrb p q)

include hlc hrc hln hrn hlb hrb in
/-- The host's general product, entry (p, q). -/
theorem dotGeneral_ix2 {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q) = ∑ k : Fin K, lhs (ix2 p k) * rhs (ix2 k q) :=
  Cert.DotRead.dotGeneral_read d K (contr_rank d hlc) (contr_size d hlc) prec sched lhs rhs (ix2 p q) (fun k => ix2 p k) (fun k => ix2 k q)
    (lhs_read d hlc hln hlb p q) (rhs_read d hlc hrc hln hrn hlb hrb p q)

end Cert.MatmulRows

end
-- ==== Proof.MatmulReads.lean ====
/-
  The four matrix products of the network, entry by entry.

  Each dense layer multiplies a block of rows of the node features by the layer's weight matrix: the block is
  rounded to a narrower float format (the identity on the extended reals), multiplied into a zero accumulator, and
  stored.  On the extended reals the entry in row p and column q of such a block product is the sum over k of
  (block at (p, k)) times (weights at (k, q)).  The reference multiplies the whole feature array by the same
  weights in one general product, whose entry in row r and column q is the same sum over row r of the features.
  So a block's entry is the whole product's entry in the row of the array that the block's row p comes from.
-/
import proofs.«166321_j3496103379584_1_alg».proof.Proof.Gen.KernelIdeal
import proofs.«166321_j3496103379584_1_alg».proof.Proof.Gen.KernelIdeal.Skeleton
import proofs.«166321_j3496103379584_1_alg».proof.Proof.Gen.ReferenceIdeal
import proofs.«166321_j3496103379584_1_alg».proof.Proof.LibMatmulRows
import Idealize.ShloMosaic.Lib.Pipeline.Value

noncomputable section

namespace Cert.Bridge.Reads

open Idealize.ShloMosaic Idealize.ShloMosaic.ValueIdx Cert.KernelIdeal Cert.KernelIdeal.Gen

/-- The first layer's block product at (p, q). -/
theorem pay0_read (x : Vec Ideal S5000x128 .f32) (w : Vec Ideal S128x128 .f32) (p : Fin 5000) (q : Fin 128) :
    k0_pay1 (F := Ideal) x w (ix2 p q) = ∑ k : Fin 128, x (ix2 p k) * w (ix2 k q) := by
  unfold k0_pay1
  exact Cert.MatmulRows.matmul_zero_ix2 (M := 5000) (K := 128) (N := 128)
    dot_S5000x128_S128x128_S5000x128_1_0_0_1_n_n rfl rfl rfl rfl rfl rfl none x w p q

/-- The second layer's block product at (p, q): the block is first recast to its own shape, which changes nothing. -/
theorem pay1_read (x : Vec Ideal S5000x128 .f32) (w : Vec Ideal S128x128 .f32) (p : Fin 5000) (q : Fin 128) :
    k1_pay1 (F := Ideal) x w (ix2 p q) = ∑ k : Fin 128, x (ix2 p k) * w (ix2 k q) := by
  unfold k1_pay1
  rw [shapeCast_self]
  exact Cert.MatmulRows.matmul_zero_ix2 (M := 5000) (K := 128) (N := 128)
    dot_S5000x128_S128x128_S5000x128_1_0_0_1_n_n rfl rfl rfl rfl rfl rfl none x w p q

/-- The third layer's block product at (p, q). -/
theorem pay2_read (x : Vec Ideal S5000x128 .f32) (w : Vec Ideal S128x128 .f32) (p : Fin 5000) (q : Fin 128) :
    k2_pay1 (F := Ideal) x w (ix2 p q) = ∑ k : Fin 128, x (ix2 p k) * w (ix2 k q) := by
  unfold k2_pay1
  rw [shapeCast_self]
  exact Cert.MatmulRows.matmul_zero_ix2 (M := 5000) (K := 128) (N := 128)
    dot_S5000x128_S128x128_S5000x128_1_0_0_1_n_n rfl rfl rfl rfl rfl rfl none x w p q

/-- The readout's block product at (p, q): 2048 target rows against the 128 × 12 readout weights. -/
theorem pay3_read (x : Vec Ideal S2048x128 .f32) (w : Vec Ideal S128x12 .f32) (p : Fin 2048) (q : Fin 12) :
    k3_pay1 (F := Ideal) x w (ix2 p q) = ∑ k : Fin 128, x (ix2 p k) * w (ix2 k q) := by
  unfold k3_pay1
  rw [shapeCast_self]
  exact Cert.MatmulRows.matmul_zero_ix2 (M := 2048) (K := 128) (N := 12)
    dot_S2048x128_S128x12_S2048x12_1_0_0_1_n_n rfl rfl rfl rfl rfl rfl none x w p q

/-- The reference's product of all 50000 feature rows with a 128 × 128 weight matrix, at (r, q). -/
theorem host_layer_read (X : FVec Ideal S50000x128 .f32) (W : FVec Ideal S128x128 .f32) (r : Fin 50000) (q : Fin 128) :
    Host.dotGeneral (F := Ideal) Cert.ReferenceIdeal.dot_S50000x128_S128x128_S50000x128_1_0_0_1_n_n none X W (ix2 r q)
      = ∑ k : Fin 128, X (ix2 r k) * W (ix2 k q) := by
  simp only [Host.dotGeneral]
  exact Cert.MatmulRows.dotGeneral_ix2 (M := 50000) (K := 128) (N := 128)
    Cert.ReferenceIdeal.dot_S50000x128_S128x128_S50000x128_1_0_0_1_n_n rfl rfl rfl rfl rfl rfl none _ X W r q

/-- The reference's product of the 8192 target rows with the readout weights, at (r, q). -/
theorem host_readout_read (X : FVec Ideal S8192x128 .f32) (W : FVec Ideal S128x12 .f32) (r : Fin 8192) (q : Fin 12) :
    Host.dotGeneral (F := Ideal) Cert.ReferenceIdeal.dot_S8192x128_S128x12_S8192x12_1_0_0_1_n_n none X W (ix2 r q)
      = ∑ k : Fin 128, X (ix2 r k) * W (ix2 k q) := by
  simp only [Host.dotGeneral]
  exact Cert.MatmulRows.dotGeneral_ix2 (M := 8192) (K := 128) (N := 12)
    Cert.ReferenceIdeal.dot_S8192x128_S128x12_S8192x12_1_0_0_1_n_n rfl rfl rfl rfl rfl rfl none _ X W r q

end Cert.Bridge.Reads

end
-- ==== Proof.Region0.lean ====
/-
  The first layer's product, region by region: what the first pipelined region leaves in its result array.

  The region walks the node features in 10 blocks of 5000 rows.  At each point it multiplies the point's block of rows by the
  whole weight matrix and writes the product back as the same block of rows of its result array.  Row p of block t is row
  5000·t + p of the array, and an entry of a product depends only on its own row of the left factor, so what point t
  writes back is block t of the product of the WHOLE left array with the weights.  The 10 blocks tile the result
  array, so the array ends holding that whole product — the reference's one general product of the two arrays.
-/
import proofs.«166321_j3496103379584_1_alg».proof.Proof.Gen.KernelIdeal.Frame
import proofs.«166321_j3496103379584_1_alg».proof.Proof.MatmulReads
import Idealize.ShloMosaic.Lib.Pipeline.Value

set_option maxRecDepth 16384

noncomputable section

namespace Cert.Bridge.Region0

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of the left array with the weights. -/
abbrev whole (X : FVec Ideal S50000x128 .f32) (W : FVec Ideal S128x128 .f32) : FVec Ideal S50000x128 .f32 :=
  Host.dotGeneral (F := Ideal) Cert.ReferenceIdeal.dot_S50000x128_S128x128_S50000x128_1_0_0_1_n_n none X W

/-- The index maps over the grid: the left factor's block and the result's block are the same block of rows, the
    weights' block is the whole matrix, and no block has a column offset. -/
theorem block_indices : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block of rows is some point's. -/
theorem every_block : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product. -/
theorem written_back (c : Dev nD) (t : Fin cfg0.N) :
    (dat0 V c).flushed 2 t = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := block_indices t
  funext j
  have hj0 : (j 0).val < 5000 := (j 0).isLt
  have hj1 : (j 1).val < 128 := (j 1).isLt
  have hr : win0_2.index t (0 : Fin 2) * 5000 + (j 0).val < 50000 := by omega
  show k0_pay1 (iblk0 V c 0 t) (iblk0 V c 1 t) j
    = whole (V c main_arg0) (V c main_arg3) (((cfg0.win 2).blk t).view.emb j)
  have hemb : ((cfg0.win 2).blk t).view.emb j
      = ix2 (⟨win0_2.index t (0 : Fin 2) * 5000 + (j 0).val, hr⟩ : Fin 50000) (⟨(j 1).val, hj1⟩ : Fin 128) := by
    funext a; apply Fin.ext
    match a with
    | ⟨0, _⟩ => show win0_2.index t (0 : Fin 2) * 5000 + 1 * (j 0).val = win0_2.index t (0 : Fin 2) * 5000 + (j 0).val; omega
    | ⟨1, _⟩ => show win0_2.index t (1 : Fin 2) * 128 + 1 * (j 1).val = (j 1).val; omega
  rw [hemb]
  have hpay := Cert.Bridge.Reads.pay0_read (iblk0 V c 0 t) (iblk0 V c 1 t) (⟨(j 0).val, hj0⟩ : Fin 5000) (⟨(j 1).val, hj1⟩ : Fin 128)
  have hjj : ix2 (⟨(j 0).val, hj0⟩ : Fin 5000) (⟨(j 1).val, hj1⟩ : Fin 128) = j := by
    funext a; match a with | ⟨0, _⟩ => rfl | ⟨1, _⟩ => rfl
  rw [hjj] at hpay
  refine hpay.trans ?_
  refine Eq.trans ?_ (Cert.Bridge.Reads.host_layer_read _ _ _ _).symm
  refine Finset.sum_congr rfl fun k _ => ?_
  have hx : iblk0 V c 0 t (ix2 (⟨(j 0).val, hj0⟩ : Fin 5000) k)
      = V c main_arg0 (ix2 (⟨win0_2.index t (0 : Fin 2) * 5000 + (j 0).val, hr⟩ : Fin 50000) k) := by
    show V c main_arg0 (((cfg0.win 0).blk t).view.emb (ix2 (⟨(j 0).val, hj0⟩ : Fin 5000) k)) = _
    refine congrArg _ ?_
    funext a; apply Fin.ext
    match a with
    | ⟨0, _⟩ => show win0_0.index t (0 : Fin 2) * 5000 + 1 * (j 0).val = win0_2.index t (0 : Fin 2) * 5000 + (j 0).val; omega
    | ⟨1, _⟩ => show win0_0.index t (1 : Fin 2) * 128 + 1 * k.val = k.val; omega
  have hw : iblk0 V c 1 t (ix2 k (⟨(j 1).val, hj1⟩ : Fin 128)) = V c main_arg3 (ix2 k (⟨(j 1).val, hj1⟩ : Fin 128)) := by
    show V c main_arg3 (((cfg0.win 1).blk t).view.emb (ix2 k (⟨(j 1).val, hj1⟩ : Fin 128))) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * (j 1).val = (j 1).val; omega
  rw [hx, hw]

/-- An index of the result array is in point t's block iff each coordinate is in the block's range on its axis. -/
theorem in_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of the point whose block of rows is number r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := every_block ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the whole product of the two input arrays as the region found them. -/
theorem result (c : Dev nD) :
    (dat0 V c).arrAt 2 cfg0.N = whole (V c main_arg0) (V c main_arg3) :=
  (dat0 V c).arrAt_eq_of_cover 2 (whole (V c main_arg0) (V c main_arg3)) (fun t _ => written_back V c t) (covered)

end Cert.Bridge.Region0

end
-- ==== Proof.Region1.lean ====
/-
  The second layer's product: what the second pipelined region leaves in its result array.

  The region walks the node features in 10 blocks of 5000 rows.  At each point it multiplies the point's block of rows by the
  whole weight matrix and writes the product back as the same block of rows of its result array.  Row p of block t is row
  5000·t + p of the array, and an entry of a product depends only on its own row of the left factor, so what point t
  writes back is block t of the product of the WHOLE left array with the weights.  The 10 blocks tile the result
  array, so the array ends holding that whole product — the reference's one general product of the two arrays.
-/
import proofs.«166321_j3496103379584_1_alg».proof.Proof.Gen.KernelIdeal.Frame
import proofs.«166321_j3496103379584_1_alg».proof.Proof.MatmulReads
import Idealize.ShloMosaic.Lib.Pipeline.Value

set_option maxRecDepth 16384

noncomputable section

namespace Cert.Bridge.Region1

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of the left array with the weights. -/
abbrev whole (X : FVec Ideal S50000x128 .f32) (W : FVec Ideal S128x128 .f32) : FVec Ideal S50000x128 .f32 :=
  Host.dotGeneral (F := Ideal) Cert.ReferenceIdeal.dot_S50000x128_S128x128_S50000x128_1_0_0_1_n_n none X W

/-- The index maps over the grid: the left factor's block and the result's block are the same block of rows, the
    weights' block is the whole matrix, and no block has a column offset. -/
theorem block_indices : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block of rows is some point's. -/
theorem every_block : ∀ q0 : Fin 10, ∃ t : Fin cfg1.N, win1_2.index t = ![q0.val, 0] :=
  (by decide +kernel : ∀ q0 : Fin 10, ∃ t : Fin grid1.N, win1_2.index t = ![q0.val, 0])

/-- What point t writes back is block t of the whole product. -/
theorem written_back (c : Dev nD) (t : Fin cfg1.N) :
    (dat1 V c).flushed 2 t = ((cfg1.win 2).blk t).view.read (Elt Ideal) (whole (V c main_v47) (V c main_arg5)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S128x128) zero_offsets]
  obtain ⟨e0, e1, e2, e3, e4, e5⟩ := block_indices t
  funext j
  have hj0 : (j 0).val < 5000 := (j 0).isLt
  have hj1 : (j 1).val < 128 := (j 1).isLt
  have hr : win1_2.index t (0 : Fin 2) * 5000 + (j 0).val < 50000 := by omega
  show k1_pay1 (iblk1 V c 0 t) (iblk1 V c 1 t) j
    = whole (V c main_v47) (V c main_arg5) (((cfg1.win 2).blk t).view.emb j)
  have hemb : ((cfg1.win 2).blk t).view.emb j
      = ix2 (⟨win1_2.index t (0 : Fin 2) * 5000 + (j 0).val, hr⟩ : Fin 50000) (⟨(j 1).val, hj1⟩ : Fin 128) := by
    funext a; apply Fin.ext
    match a with
    | ⟨0, _⟩ => show win1_2.index t (0 : Fin 2) * 5000 + 1 * (j 0).val = win1_2.index t (0 : Fin 2) * 5000 + (j 0).val; omega
    | ⟨1, _⟩ => show win1_2.index t (1 : Fin 2) * 128 + 1 * (j 1).val = (j 1).val; omega
  rw [hemb]
  have hpay := Cert.Bridge.Reads.pay1_read (iblk1 V c 0 t) (iblk1 V c 1 t) (⟨(j 0).val, hj0⟩ : Fin 5000) (⟨(j 1).val, hj1⟩ : Fin 128)
  have hjj : ix2 (⟨(j 0).val, hj0⟩ : Fin 5000) (⟨(j 1).val, hj1⟩ : Fin 128) = j := by
    funext a; match a with | ⟨0, _⟩ => rfl | ⟨1, _⟩ => rfl
  rw [hjj] at hpay
  refine hpay.trans ?_
  refine Eq.trans ?_ (Cert.Bridge.Reads.host_layer_read _ _ _ _).symm
  refine Finset.sum_congr rfl fun k _ => ?_
  have hx : iblk1 V c 0 t (ix2 (⟨(j 0).val, hj0⟩ : Fin 5000) k)
      = V c main_v47 (ix2 (⟨win1_2.index t (0 : Fin 2) * 5000 + (j 0).val, hr⟩ : Fin 50000) k) := by
    show V c main_v47 (((cfg1.win 0).blk t).view.emb (ix2 (⟨(j 0).val, hj0⟩ : Fin 5000) k)) = _
    refine congrArg _ ?_
    funext a; apply Fin.ext
    match a with
    | ⟨0, _⟩ => show win1_0.index t (0 : Fin 2) * 5000 + 1 * (j 0).val = win1_2.index t (0 : Fin 2) * 5000 + (j 0).val; omega
    | ⟨1, _⟩ => show win1_0.index t (1 : Fin 2) * 128 + 1 * k.val = k.val; omega
  have hw : iblk1 V c 1 t (ix2 k (⟨(j 1).val, hj1⟩ : Fin 128)) = V c main_arg5 (ix2 k (⟨(j 1).val, hj1⟩ : Fin 128)) := by
    show V c main_arg5 (((cfg1.win 1).blk t).view.emb (ix2 k (⟨(j 1).val, hj1⟩ : Fin 128))) = _
    refine congrArg _ ?_
    funext a; apply Fin.ext
    match a with
    | ⟨0, _⟩ => show win1_1.index t (0 : Fin 2) * 128 + 1 * k.val = k.val; omega
    | ⟨1, _⟩ => show win1_1.index t (1 : Fin 2) * 128 + 1 * (j 1).val = (j 1).val; omega
  rw [hx, hw]

/-- An index of the result array is in point t's block iff each coordinate is in the block's range on its axis. -/
theorem in_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v48).slice (win1_2.rect t)).set ↔ _
  rw [View.set_slice_whole, Rect.mem_set_unit]
  exact Iff.rfl

/-- Row r of the result lies in the block of the point whose block of rows is number r / 5000. -/
theorem covered (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := every_block ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [in_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region: the whole product of the two input arrays as the region found them. -/
theorem result (c : Dev nD) :
    (dat1 V c).arrAt 2 cfg1.N = whole (V c main_v47) (V c main_arg5) :=
  (dat1 V c).arrAt_eq_of_cover 2 (whole (V c main_v47) (V c main_arg5)) (fun t _ => written_back V c t) (covered)

end Cert.Bridge.Region1

end
-- ==== Proof.Region2.lean ====
/-
  The third layer's product: what the third pipelined region leaves in its result array.

  The region walks the node features in 10 blocks of 5000 rows.  At each point it multiplies the point's block of rows by the
  whole weight matrix and writes the product back as the same block of rows of its result array.  Row p of block t is row
  5000·t + p of the array, and an entry of a product depends only on its own row of the left factor, so what point t
  writes back is block t of the product of the WHOLE left array with the weights.  The 10 blocks tile the result
  array, so the array ends holding that whole product — the reference's one general product of the two arrays.
-/
import proofs.«166321_j3496103379584_1_alg».proof.Proof.Gen.KernelIdeal.Frame
import proofs.«166321_j3496103379584_1_alg».proof.Proof.MatmulReads
import Idealize.ShloMosaic.Lib.Pipeline.Value

set_option maxRecDepth 16384

noncomputable section

namespace Cert.Bridge.Region2

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of the left array with the weights. -/
abbrev whole (X : FVec Ideal S50000x128 .f32) (W : FVec Ideal S128x128 .f32) : FVec Ideal S50000x128 .f32 :=
  Host.dotGeneral (F := Ideal) Cert.ReferenceIdeal.dot_S50000x128_S128x128_S50000x128_1_0_0_1_n_n none X W

/-- The index maps over the grid: the left factor's block and the result's block are the same block of rows, the
    weights' block is the whole matrix, and no block has a column offset. -/
theorem block_indices : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block of rows is some point's. -/
theorem every_block : ∀ q0 : Fin 10, ∃ t : Fin cfg2.N, win2_2.index t = ![q0.val, 0] :=
  (by decide +kernel : ∀ q0 : Fin 10, ∃ t : Fin grid2.N, win2_2.index t = ![q0.val, 0])

/-- What point t writes back is block t of the whole product. -/
theorem written_back (c : Dev nD) (t : Fin cfg2.N) :
    (dat2 V c).flushed 2 t = ((cfg2.win 2).blk t).view.read (Elt Ideal) (whole (V c main_v65) (V c main_arg7)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := block_indices t
  funext j
  have hj0 : (j 0).val < 5000 := (j 0).isLt
  have hj1 : (j 1).val < 128 := (j 1).isLt
  have hr : win2_2.index t (0 : Fin 2) * 5000 + (j 0).val < 50000 := by omega
  show k2_pay1 (iblk2 V c 0 t) (iblk2 V c 1 t) j
    = whole (V c main_v65) (V c main_arg7) (((cfg2.win 2).blk t).view.emb j)
  have hemb : ((cfg2.win 2).blk t).view.emb j
      = ix2 (⟨win2_2.index t (0 : Fin 2) * 5000 + (j 0).val, hr⟩ : Fin 50000) (⟨(j 1).val, hj1⟩ : Fin 128) := by
    funext a; apply Fin.ext
    match a with
    | ⟨0, _⟩ => show win2_2.index t (0 : Fin 2) * 5000 + 1 * (j 0).val = win2_2.index t (0 : Fin 2) * 5000 + (j 0).val; omega
    | ⟨1, _⟩ => show win2_2.index t (1 : Fin 2) * 128 + 1 * (j 1).val = (j 1).val; omega
  rw [hemb]
  have hpay := Cert.Bridge.Reads.pay2_read (iblk2 V c 0 t) (iblk2 V c 1 t) (⟨(j 0).val, hj0⟩ : Fin 5000) (⟨(j 1).val, hj1⟩ : Fin 128)
  have hjj : ix2 (⟨(j 0).val, hj0⟩ : Fin 5000) (⟨(j 1).val, hj1⟩ : Fin 128) = j := by
    funext a; match a with | ⟨0, _⟩ => rfl | ⟨1, _⟩ => rfl
  rw [hjj] at hpay
  refine hpay.trans ?_
  refine Eq.trans ?_ (Cert.Bridge.Reads.host_layer_read _ _ _ _).symm
  refine Finset.sum_congr rfl fun k _ => ?_
  have hx : iblk2 V c 0 t (ix2 (⟨(j 0).val, hj0⟩ : Fin 5000) k)
      = V c main_v65 (ix2 (⟨win2_2.index t (0 : Fin 2) * 5000 + (j 0).val, hr⟩ : Fin 50000) k) := by
    show V c main_v65 (((cfg2.win 0).blk t).view.emb (ix2 (⟨(j 0).val, hj0⟩ : Fin 5000) k)) = _
    refine congrArg _ ?_
    funext a; apply Fin.ext
    match a with
    | ⟨0, _⟩ => show win2_0.index t (0 : Fin 2) * 5000 + 1 * (j 0).val = win2_2.index t (0 : Fin 2) * 5000 + (j 0).val; omega
    | ⟨1, _⟩ => show win2_0.index t (1 : Fin 2) * 128 + 1 * k.val = k.val; omega
  have hw : iblk2 V c 1 t (ix2 k (⟨(j 1).val, hj1⟩ : Fin 128)) = V c main_arg7 (ix2 k (⟨(j 1).val, hj1⟩ : Fin 128)) := by
    show V c main_arg7 (((cfg2.win 1).blk t).view.emb (ix2 k (⟨(j 1).val, hj1⟩ : Fin 128))) = _
    refine congrArg _ ?_
    funext a; apply Fin.ext
    match a with
    | ⟨0, _⟩ => show win2_1.index t (0 : Fin 2) * 128 + 1 * k.val = k.val; omega
    | ⟨1, _⟩ => show win2_1.index t (1 : Fin 2) * 128 + 1 * (j 1).val = (j 1).val; omega
  rw [hx, hw]

/-- An index of the result array is in point t's block iff each coordinate is in the block's range on its axis. -/
theorem in_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v66).slice (win2_2.rect t)).set ↔ _
  rw [View.set_slice_whole, Rect.mem_set_unit]
  exact Iff.rfl

/-- Row r of the result lies in the block of the point whose block of rows is number r / 5000. -/
theorem covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := every_block ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [in_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the region: the whole product of the two input arrays as the region found them. -/
theorem result (c : Dev nD) :
    (dat2 V c).arrAt 2 cfg2.N = whole (V c main_v65) (V c main_arg7) :=
  (dat2 V c).arrAt_eq_of_cover 2 (whole (V c main_v65) (V c main_arg7)) (fun t _ => written_back V c t) (covered)

end Cert.Bridge.Region2

end
-- ==== Proof.Region3.lean ====
/-
  The readout's product: what the fourth pipelined region leaves in its result array.

  The region walks the gathered target rows in 4 blocks of 2048 rows.  At each point it multiplies the point's block of rows by the
  whole readout matrix and writes the product back as the same block of rows of its result array.  Row p of block t is row
  2048·t + p of the array, and an entry of a product depends only on its own row of the left factor, so what point t
  writes back is block t of the product of the WHOLE left array with the weights.  The 4 blocks tile the result
  array, so the array ends holding that whole product — the reference's one general product of the two arrays.
-/
import proofs.«166321_j3496103379584_1_alg».proof.Proof.Gen.KernelIdeal.Frame
import proofs.«166321_j3496103379584_1_alg».proof.Proof.MatmulReads
import Idealize.ShloMosaic.Lib.Pipeline.Value

set_option maxRecDepth 16384

noncomputable section

namespace Cert.Bridge.Region3

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The whole product of the left array with the weights. -/
abbrev whole (X : FVec Ideal S8192x128 .f32) (W : FVec Ideal S128x12 .f32) : FVec Ideal S8192x12 .f32 :=
  Host.dotGeneral (F := Ideal) Cert.ReferenceIdeal.dot_S8192x128_S128x12_S8192x12_1_0_0_1_n_n none X W

/-- The index maps over the grid: the left factor's block and the result's block are the same block of rows, the
    weights' block is the whole matrix, and no block has a column offset. -/
theorem block_indices : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 3 :=
  (by decide +kernel : ∀ t : Fin grid3.N, _)

/-- Every block of rows is some point's. -/
theorem every_block : ∀ q0 : Fin 4, ∃ t : Fin cfg3.N, win3_2.index t = ![q0.val, 0] :=
  (by decide +kernel : ∀ q0 : Fin 4, ∃ t : Fin grid3.N, win3_2.index t = ![q0.val, 0])

/-- What point t writes back is block t of the whole product. -/
theorem written_back (c : Dev nD) (t : Fin cfg3.N) :
    (dat3 V c).flushed 2 t = ((cfg3.win 2).blk t).view.read (Elt Ideal) (whole (V c main_v90) (V c main_arg9)) := by
  show (cfg3.win 2).cut (grid3.coords t) ((dat3 V c).after 2 t) = _
  rw [after3_2]
  unfold out3_2
  rw [View.canon_unit_zero zero_offsets]
  simp only [View.ld_unit_zero (S := S2048x128) zero_offsets, View.ld_unit_zero (S := S128x12) zero_offsets]
  obtain ⟨e0, e1, e2, e3, e4, e5⟩ := block_indices t
  funext j
  have hj0 : (j 0).val < 2048 := (j 0).isLt
  have hj1 : (j 1).val < 12 := (j 1).isLt
  have hr : win3_2.index t (0 : Fin 2) * 2048 + (j 0).val < 8192 := by omega
  show k3_pay1 (iblk3 V c 0 t) (iblk3 V c 1 t) j
    = whole (V c main_v90) (V c main_arg9) (((cfg3.win 2).blk t).view.emb j)
  have hemb : ((cfg3.win 2).blk t).view.emb j
      = ix2 (⟨win3_2.index t (0 : Fin 2) * 2048 + (j 0).val, hr⟩ : Fin 8192) (⟨(j 1).val, hj1⟩ : Fin 12) := by
    funext a; apply Fin.ext
    match a with
    | ⟨0, _⟩ => show win3_2.index t (0 : Fin 2) * 2048 + 1 * (j 0).val = win3_2.index t (0 : Fin 2) * 2048 + (j 0).val; omega
    | ⟨1, _⟩ => show win3_2.index t (1 : Fin 2) * 12 + 1 * (j 1).val = (j 1).val; omega
  rw [hemb]
  have hpay := Cert.Bridge.Reads.pay3_read (iblk3 V c 0 t) (iblk3 V c 1 t) (⟨(j 0).val, hj0⟩ : Fin 2048) (⟨(j 1).val, hj1⟩ : Fin 12)
  have hjj : ix2 (⟨(j 0).val, hj0⟩ : Fin 2048) (⟨(j 1).val, hj1⟩ : Fin 12) = j := by
    funext a; match a with | ⟨0, _⟩ => rfl | ⟨1, _⟩ => rfl
  rw [hjj] at hpay
  refine hpay.trans ?_
  refine Eq.trans ?_ (Cert.Bridge.Reads.host_readout_read _ _ _ _).symm
  refine Finset.sum_congr rfl fun k _ => ?_
  have hx : iblk3 V c 0 t (ix2 (⟨(j 0).val, hj0⟩ : Fin 2048) k)
      = V c main_v90 (ix2 (⟨win3_2.index t (0 : Fin 2) * 2048 + (j 0).val, hr⟩ : Fin 8192) k) := by
    show V c main_v90 (((cfg3.win 0).blk t).view.emb (ix2 (⟨(j 0).val, hj0⟩ : Fin 2048) k)) = _
    refine congrArg _ ?_
    funext a; apply Fin.ext
    match a with
    | ⟨0, _⟩ => show win3_0.index t (0 : Fin 2) * 2048 + 1 * (j 0).val = win3_2.index t (0 : Fin 2) * 2048 + (j 0).val; omega
    | ⟨1, _⟩ => show win3_0.index t (1 : Fin 2) * 128 + 1 * k.val = k.val; omega
  have hw : iblk3 V c 1 t (ix2 k (⟨(j 1).val, hj1⟩ : Fin 12)) = V c main_arg9 (ix2 k (⟨(j 1).val, hj1⟩ : Fin 12)) := by
    show V c main_arg9 (((cfg3.win 1).blk t).view.emb (ix2 k (⟨(j 1).val, hj1⟩ : Fin 12))) = _
    refine congrArg _ ?_
    funext a; apply Fin.ext
    match a with
    | ⟨0, _⟩ => show win3_1.index t (0 : Fin 2) * 128 + 1 * k.val = k.val; omega
    | ⟨1, _⟩ => show win3_1.index t (1 : Fin 2) * 12 + 1 * (j 1).val = (j 1).val; omega
  rw [hx, hw]

/-- An index of the result array is in point t's block iff each coordinate is in the block's range on its axis. -/
theorem in_block (t : Fin cfg3.N) (i : S8192x12.Idx) :
    i ∈ ((cfg3.win 2).blk t).view.set ↔ ∀ a : Fin 2, win3_2.index t a * S2048x12.size a ≤ (i a).val ∧ (i a).val < win3_2.index t a * S2048x12.size a + S2048x12.size a := by
  show i ∈ ((View.whole main_v91).slice (win3_2.rect t)).set ↔ _
  rw [View.set_slice_whole, Rect.mem_set_unit]
  exact Iff.rfl

/-- Row r of the result lies in the block of the point whose block of rows is number r / 2048. -/
theorem covered (i : S8192x12.Idx) :
    ∃ t : Fin cfg3.N, (cfg3.win 2).flush t = true ∧ i ∈ ((cfg3.win 2).blk t).view.set := by
  have hi0 : (i 0).val < 8192 := (i 0).isLt
  have hi1 : (i 1).val < 12 := (i 1).isLt
  obtain ⟨t, ht⟩ := every_block ⟨(i 0).val / 2048, by omega⟩
  have q0 : win3_2.index t (0 : Fin 2) = (i 0).val / 2048 := congrFun ht 0
  have q1 : win3_2.index t (1 : Fin 2) = 0 := congrFun ht 1
  refine ⟨t, flush3_2 t, ?_⟩
  rw [in_block]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 12 ≤ (i 1).val ∧ (i 1).val < win3_2.index t (1 : Fin 2) * 12 + 12; omega

/-- The result array after the region: the whole product of the two input arrays as the region found them. -/
theorem result (c : Dev nD) :
    (dat3 V c).arrAt 2 cfg3.N = whole (V c main_v90) (V c main_arg9) :=
  (dat3 V c).arrAt_eq_of_cover 2 (whole (V c main_v90) (V c main_arg9)) (fun t _ => written_back V c t) (covered)

end Cert.Bridge.Region3

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.LibLineEval.lean ====
/-
  Evaluating a line of host operations at one buffer, through joined vectors.

  What a buffer holds after a line of host operations is computed by walking the line backwards: an operation's own
  result buffer holds its function of what its operand buffers held before it, any other buffer what it held before.
  The library's one-pass form of this walk stops at a vector made by joining pieces end to end: the join takes its
  pieces as a list of (shape, vector) pairs and its side condition is stated of that list, so the pass cannot rewrite
  a piece and leaves the rest of the walk unevaluated inside it.  Stated as a function of its two pieces — the side
  condition then speaks of the two shapes only — a two-piece join lets the walk continue into both pieces.
  `eval_line` is the one-pass walk with that restatement added, and with the rules that take the first or the last
  so many operations of a literal line, so that a long line can be evaluated in two halves.
-/
import Idealize.ShloMosaic.Lib.StableHlo.Run

noncomputable section

namespace Cert.LineEval

open Idealize.ShloMosaic Idealize.ShloMosaic.StableHlo

/-- Two vectors joined along an axis, as a function of the two vectors. -/
def joined {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The join of a two-element list of pieces is that function of the pieces. -/
theorem joined_eq {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = joined t a s₁ s₂ h x y := rfl

/-- The walk as one simplification pass over a literal line, or over a literal line's first or last so many
    operations; two-piece joins are entered. Closes a goal `after ops V (Proc.devRef .tc r) = …` or leaves an equation
    between the operations' functions applied to `V` at the buffers the line only reads. -/
macro "eval_line" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', joined_eq,
      List.take_succ_cons, List.take_zero, List.drop_succ_cons, List.drop_zero]))

end Cert.LineEval

end
-- ==== Proof.KernelLine.lean ====
/-
  The program as one line of host operations.

  Each pipelined region rewrites the buffers as a single host operation would: the general product of its two input
  arrays, written to its result array.  With the four regions replaced by these four operations the program is one
  line of host operations, and what its result buffer holds at the end is computed by walking that line backwards
  from the result: each buffer holds its operation's function of what the operand buffers held.  The walk ends at the
  argument buffers' launch contents.
-/
import proofs.«166321_j3496103379584_1_alg».proof.Proof.Gen.KernelIdeal.Frame
import proofs.«166321_j3496103379584_1_alg».proof.Proof.Region0
import proofs.«166321_j3496103379584_1_alg».proof.Proof.Region1
import proofs.«166321_j3496103379584_1_alg».proof.Proof.Region2
import proofs.«166321_j3496103379584_1_alg».proof.Proof.Region3
import proofs.«166321_j3496103379584_1_alg».proof.Proof.LibRegionOp
import proofs.«166321_j3496103379584_1_alg».proof.Proof.LibLineEval

set_option maxRecDepth 16384

noncomputable section

namespace Cert.Bridge.Line

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The first layer's product of the node features with its weights, as one host operation. -/
abbrev product0 : HloOp τ sig (Elt Ideal) :=
  StableHlo.binary main_arg0 main_arg3 main_v30 ((fun l r => Host.dotGeneral (F := Ideal) (φ₁ := .f32) (φ₂ := .f32) Cert.ReferenceIdeal.dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal))

/-- The second layer's product, as one host operation. -/
abbrev product1 : HloOp τ sig (Elt Ideal) :=
  StableHlo.binary main_v47 main_arg5 main_v48 ((fun l r => Host.dotGeneral (F := Ideal) (φ₁ := .f32) (φ₂ := .f32) Cert.ReferenceIdeal.dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal))

/-- The third layer's product, as one host operation. -/
abbrev product2 : HloOp τ sig (Elt Ideal) :=
  StableHlo.binary main_v65 main_arg7 main_v66 ((fun l r => Host.dotGeneral (F := Ideal) (φ₁ := .f32) (φ₂ := .f32) Cert.ReferenceIdeal.dot_S50000x128_S128x128_S50000x128_1_0_0_1_n_n none l r) : (⟨S50000x128, .f32⟩ : BufTy).Contents (Elt Ideal) → (⟨S128x128, .f32⟩ : BufTy).Contents (Elt Ideal) → (⟨S50000x128, .f32⟩ : BufTy).Contents (Elt Ideal))

/-- The readout's product of the gathered target rows with the readout weights, as one host operation. -/
abbrev product3 : HloOp τ sig (Elt Ideal) :=
  StableHlo.binary main_v90 main_arg9 main_v91 ((fun l r => Host.dotGeneral (F := Ideal) (φ₁ := .f32) (φ₂ := .f32) Cert.ReferenceIdeal.dot_S8192x128_S128x12_S8192x12_1_0_0_1_n_n none l r) : (⟨S8192x128, .f32⟩ : BufTy).Contents (Elt Ideal) → (⟨S128x12, .f32⟩ : BufTy).Contents (Elt Ideal) → (⟨S8192x12, .f32⟩ : BufTy).Contents (Elt Ideal))

/-- The choice of the reciprocal root where the degree is positive and zero elsewhere, as three plain operations on
    the call's buffers (the typed references of a called function carry their buffers' own types). -/
abbrev choose0 : List (HloOp τ sig (Elt Ideal)) :=
  [ StableHlo.unary main_cst_2 main_call0_v0 (id : (⟨S_, .f32⟩ : BufTy).Contents (Elt Ideal) → (⟨S_, .f32⟩ : BufTy).Contents (Elt Ideal)),
    StableHlo.unary main_call0_v0 main_call0_v1 (broadcastInDim S50000 ![] bcast_S_S50000 : (⟨S_, .f32⟩ : BufTy).Contents (Elt Ideal) → (⟨S50000, .f32⟩ : BufTy).Contents (Elt Ideal)),
    StableHlo.ternary main_v12 main_v13 main_call0_v1 main_v14 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ]
theorem choose0_eq : (hostOps0_1 : List (HloOp τ sig (Elt Ideal))) = choose0 := rfl

/-- The clamp at zero after layer 1, as three plain operations on the call's buffers. -/
abbrev clamp1 : List (HloOp τ sig (Elt Ideal)) :=
  [ StableHlo.nullary main_call1_cst (constant (F := Ideal) S_ .f32 0x00000000#32),
    StableHlo.unary main_call1_cst main_call1_v0 (broadcastInDim S50000x128 ![] bcast_S_S50000x128 : (⟨S_, .f32⟩ : BufTy).Contents (Elt Ideal) → (⟨S50000x128, .f32⟩ : BufTy).Contents (Elt Ideal)),
    StableHlo.binary main_v46 main_call1_v0 main_v47 (maximumf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ]
theorem clamp1_eq : (hostOps1_1 : List (HloOp τ sig (Elt Ideal))) = clamp1 := rfl

/-- The clamp at zero after layer 2, as three plain operations on the call's buffers. -/
abbrev clamp2 : List (HloOp τ sig (Elt Ideal)) :=
  [ StableHlo.nullary main_call2_cst (constant (F := Ideal) S_ .f32 0x00000000#32),
    StableHlo.unary main_call2_cst main_call2_v0 (broadcastInDim S50000x128 ![] bcast_S_S50000x128 : (⟨S_, .f32⟩ : BufTy).Contents (Elt Ideal) → (⟨S50000x128, .f32⟩ : BufTy).Contents (Elt Ideal)),
    StableHlo.binary main_v64 main_call2_v0 main_v65 (maximumf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ]
theorem clamp2_eq : (hostOps2_1 : List (HloOp τ sig (Elt Ideal))) = clamp2 := rfl

/-- The clamp at zero after layer 3, as three plain operations on the call's buffers. -/
abbrev clamp3 : List (HloOp τ sig (Elt Ideal)) :=
  [ StableHlo.nullary main_call3_cst (constant (F := Ideal) S_ .f32 0x00000000#32),
    StableHlo.unary main_call3_cst main_call3_v0 (broadcastInDim S50000x128 ![] bcast_S_S50000x128 : (⟨S_, .f32⟩ : BufTy).Contents (Elt Ideal) → (⟨S50000x128, .f32⟩ : BufTy).Contents (Elt Ideal)),
    StableHlo.binary main_v82 main_call3_v0 main_v83 (maximumf (F := Ideal) (φ := .f32) : (⟨S50000x128, .f32⟩ : BufTy).Contents (Elt Ideal) → (⟨S50000x128, .f32⟩ : BufTy).Contents (Elt Ideal) → (⟨S50000x128, .f32⟩ : BufTy).Contents (Elt Ideal)) ]
theorem clamp3_eq : (hostOps3_1 : List (HloOp τ sig (Elt Ideal))) = clamp3 := rfl

/-- Region 0 changes the buffers exactly as that one operation does: its result array ends at the whole product
    (the region's own lemma), its two input arrays end as it found them, and it writes nothing else. -/
theorem region0_is_product (c : Dev nD) : W4 m ρ c = (product0).result (W3 m ρ c) := by
  unfold W4
  refine Cert.RegionOp.withArrays_eq_result spec0 launch0.win.arr_inj c (W3 m ρ c) _ product0 2 ?_ ?_ ?_
  · rfl
  · show (dat0 (V3 m ρ) c).arrAt 2 cfg0.N = (product0).result (W3 m ρ c) (Proc.devRef .tc main_v30)
    rw [StableHlo.binary_result]
    exact Cert.Bridge.Region0.result (V3 m ρ) c
  · intro w hw
    match w, hw with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, h => exact absurd rfl h

/-- Region 1 changes the buffers exactly as that one operation does: its result array ends at the whole product
    (the region's own lemma), its two input arrays end as it found them, and it writes nothing else. -/
theorem region1_is_product (c : Dev nD) : W7 m ρ c = (product1).result (W6 m ρ c) := by
  unfold W7
  refine Cert.RegionOp.withArrays_eq_result spec1 launch1.win.arr_inj c (W6 m ρ c) _ product1 2 ?_ ?_ ?_
  · rfl
  · show (dat1 (V6 m ρ) c).arrAt 2 cfg1.N = (product1).result (W6 m ρ c) (Proc.devRef .tc main_v48)
    rw [StableHlo.binary_result]
    exact Cert.Bridge.Region1.result (V6 m ρ) c
  · intro w hw
    match w, hw with
    | ⟨0, _⟩, _ => exact ((dat1 (V6 m ρ) c).arrAt_in 0 rfl _).trans (A_eq1 (V6 m ρ) c 0)
    | ⟨1, _⟩, _ => exact ((dat1 (V6 m ρ) c).arrAt_in 1 rfl _).trans (A_eq1 (V6 m ρ) c 1)
    | ⟨2, _⟩, h => exact absurd rfl h

/-- Region 2 changes the buffers exactly as that one operation does: its result array ends at the whole product
    (the region's own lemma), its two input arrays end as it found them, and it writes nothing else. -/
theorem region2_is_product (c : Dev nD) : W10 m ρ c = (product2).result (W9 m ρ c) := by
  unfold W10
  refine Cert.RegionOp.withArrays_eq_result spec2 launch2.win.arr_inj c (W9 m ρ c) _ product2 2 ?_ ?_ ?_
  · rfl
  · show (dat2 (V9 m ρ) c).arrAt 2 cfg2.N = (product2).result (W9 m ρ c) (Proc.devRef .tc main_v66)
    rw [StableHlo.binary_result]
    exact Cert.Bridge.Region2.result (V9 m ρ) c
  · intro w hw
    match w, hw with
    | ⟨0, _⟩, _ => exact ((dat2 (V9 m ρ) c).arrAt_in 0 rfl _).trans (A_eq2 (V9 m ρ) c 0)
    | ⟨1, _⟩, _ => exact ((dat2 (V9 m ρ) c).arrAt_in 1 rfl _).trans (A_eq2 (V9 m ρ) c 1)
    | ⟨2, _⟩, h => exact absurd rfl h

/-- Region 3 changes the buffers exactly as that one operation does: its result array ends at the whole product
    (the region's own lemma), its two input arrays end as it found them, and it writes nothing else. -/
theorem region3_is_product (c : Dev nD) : W14 m ρ c = (product3).result (W13 m ρ c) := by
  unfold W14
  refine Cert.RegionOp.withArrays_eq_result spec3 launch3.win.arr_inj c (W13 m ρ c) _ product3 2 ?_ ?_ ?_
  · rfl
  · show (dat3 (V13 m ρ) c).arrAt 2 cfg3.N = (product3).result (W13 m ρ c) (Proc.devRef .tc main_v91)
    rw [StableHlo.binary_result]
    exact Cert.Bridge.Region3.result (V13 m ρ) c
  · intro w hw
    match w, hw with
    | ⟨0, _⟩, _ => exact ((dat3 (V13 m ρ) c).arrAt_in 0 rfl _).trans (A_eq3 (V13 m ρ) c 0)
    | ⟨1, _⟩, _ => exact ((dat3 (V13 m ρ) c).arrAt_in 1 rfl _).trans (A_eq3 (V13 m ρ) c 1)
    | ⟨2, _⟩, h => exact absurd rfl h

/-- The contents at the program's return are the fold of ONE line: the host stretches in order, each region in its
    place as its product operation. -/
theorem last_fold (c : Dev nD) :
    W15 m ρ c = after hostOps4 ((product3).result (after hostOps3_2 (after clamp3 (after hostOps3 ((product2).result (after clamp2 (after hostOps2 ((product1).result (after clamp1 (after hostOps1 ((product0).result (after hostOps0_2 (after choose0 (after hostOps0 (W0 m ρ c))))))))))))))) := by
  rw [← choose0_eq, ← clamp1_eq, ← clamp2_eq, ← clamp3_eq]
  show after hostOps4 (W14 m ρ c) = _
  rw [region3_is_product m ρ c]
  show after hostOps4 ((product3).result (after hostOps3_2 (after hostOps3_1 (after hostOps3 (W10 m ρ c))))) = _
  rw [region2_is_product m ρ c]
  show after hostOps4 ((product3).result (after hostOps3_2 (after hostOps3_1 (after hostOps3 ((product2).result (after hostOps2_1 (after hostOps2 (W7 m ρ c)))))))) = _
  rw [region1_is_product m ρ c]
  show after hostOps4 ((product3).result (after hostOps3_2 (after hostOps3_1 (after hostOps3 ((product2).result (after hostOps2_1 (after hostOps2 ((product1).result (after hostOps1_1 (after hostOps1 (W4 m ρ c))))))))))) = _
  rw [region0_is_product m ρ c]

end Cert.Bridge.Line

end
-- ==== Proof.Bridge.lean ====
/-
  The two programs compute one function of the arguments.

  Read as one line of host operations, the kernel program differs from the reference in two ways only.  It computes
  the graph's normalisation (the self-loops, the degrees, their reciprocal roots, the per-edge weights) once and uses
  it in all three layers, where the reference computes it again in each layer from the same edge list: walking either
  line back from the result to the arguments gives the same expression, the shared part written out three times.  And
  its four products stand where the reference has general products of the same arrays — the same operations, by the
  regions' lemmas.  So the walk from the kernel's result buffer ends in the very expression the reference's run
  states for its result, over arguments that agree.
-/
import proofs.«166321_j3496103379584_1_alg».proof.Defs
import proofs.«166321_j3496103379584_1_alg».proof.Proof.KernelLine
import proofs.«166321_j3496103379584_1_alg».proof.Proof.ReferenceRun

set_option maxRecDepth 16384

noncomputable section

namespace Cert.Bridge.Final

open Idealize.ShloMosaic Idealize.ShloMosaic.TcCoe Idealize.SL.Sem Idealize.ShloMosaic.StableHlo

set_option maxRecDepth 200000 in
set_option maxHeartbeats 80000000 in
/-- What the kernel program's result buffer holds at its return is the reference's result expression. -/
theorem results_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.KernelIdeal.Gen.W15 m ρ c (Proc.devRef .tc Cert.KernelIdeal.main_v94) = Cert.ReferenceIdeal.ValueP.res_main_v146 m' c := by
  obtain ⟨h0, h1, h2, h3, h4, h5, h6, h7, h8, h9, h10⟩ := h
  rw [Cert.Bridge.Line.last_fold m ρ c]
  simp (disch := decide) only [Cert.KernelIdeal.Gen.hostOps0, Cert.Bridge.Line.choose0, Cert.KernelIdeal.Gen.hostOps0_2, Cert.KernelIdeal.Gen.hostOps1, Cert.Bridge.Line.clamp1, Cert.KernelIdeal.Gen.hostOps2, Cert.Bridge.Line.clamp2, Cert.KernelIdeal.Gen.hostOps3, Cert.Bridge.Line.clamp3, Cert.KernelIdeal.Gen.hostOps3_2, Cert.KernelIdeal.Gen.hostOps4,
    Cert.Bridge.Line.product0, Cert.Bridge.Line.product1, Cert.Bridge.Line.product2, Cert.Bridge.Line.product3,
    after_cons, after_nil,
    nullary_result', unary_result', binary_result', ternary_result', quaternary_result', reshape_result', nary4_result', nary_result',
    unaryIndexed_result', binaryIndexed_result',
    nullary_result_ne', unary_result_ne', binary_result_ne', ternary_result_ne', quaternary_result_ne', reshape_result_ne',
    nary_result_ne', unaryIndexed_result_ne', binaryIndexed_result_ne', Cert.LineEval.joined_eq]
  unfold Cert.ReferenceIdeal.ValueP.res_main_v146
  rw [h0, h1, h2, h3, h4, h5, h6, h7, h8, h9, h10]
  rfl

end Cert.Bridge.Final

end
-- ==== Proof.lean ====
/-
  A three-layer graph convolution network with a linear readout, against its reference.

  Both programs add a self-loop to every node, normalise each edge by the reciprocal roots of its endpoints' degrees,
  and apply three layers of: multiply the node features by the layer's weights, gather the products along the edges'
  sources, scale by the edge weights, sum into the edges' destinations, add the bias, clamp at zero.  The rows of the
  target nodes are then multiplied by the readout weights and the readout bias is added.  The kernel program runs
  the four matrix products as pipelined regions over blocks of rows, with the operands rounded to a narrower float
  format first, and computes the edge weights once; the reference uses general products of the whole arrays and
  recomputes the edge weights in each layer.  On the extended reals rounding is the identity, a product block by
  block is the whole product, and recomputing changes nothing, so the two results are equal entry by entry; no
  property of the inputs is needed.  The frames are the generated ones; the idealization rewrote nothing.
-/
import proofs.«166321_j3496103379584_1_alg».proof.Defs
import proofs.«166321_j3496103379584_1_alg».proof.Proof.Gen.Kernel
import proofs.«166321_j3496103379584_1_alg».proof.Proof.Gen.Kernel.Frame
import proofs.«166321_j3496103379584_1_alg».proof.Proof.Gen.KernelIdeal
import proofs.«166321_j3496103379584_1_alg».proof.Proof.Gen.KernelIdeal.Frame
import proofs.«166321_j3496103379584_1_alg».proof.Proof.Gen.ReferenceIdeal
import proofs.«166321_j3496103379584_1_alg».proof.Proof.ReferenceRun
import proofs.«166321_j3496103379584_1_alg».proof.Proof.Gen.Pre_finite_inputs
import proofs.«166321_j3496103379584_1_alg».proof.Proof.KernelRun
import proofs.«166321_j3496103379584_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no region: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- Both programs run, and end with the same result: the kernel's result buffer holds the last fold's contents,
    which is the reference's result expression over the agreeing arguments. -/
theorem algebraic : Cert.algebraic_KernelIdeal_ReferenceIdeal := by
  intro m ρ m' ρ' _ hagree
  refine ⟨fun c => Cert.KernelIdeal.Gen.W15 m ρ c (Proc.devRef .tc Cert.KernelIdeal.main_v94),
    Cert.Bridge.KernelRun.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (Cert.Bridge.Final.results_agree m ρ m' c (hagree c)).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
